-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v18 : BitVec 32 := Scalar.muli arg0 c400_i32
  let v19 : Index := Scalar.indexCast v18
  let c0_10 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .i1⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.MatAssoc.lean ====
/-
  The one algebraic law this certificate rests on: for matrices with REAL entries, read inside the extended reals,
  the triple product is associative entry by entry,

      Σ_k (Σ_j a_j · x_jk) · w_k  =  Σ_j a_j · (Σ_k x_jk · w_k).

  On the extended reals themselves the law is not available: it needs distributivity, which fails at the infinities
  (⊤ · (1 + (−1)) = ⊤ · 0 = 0, while ⊤ · 1 + ⊤ · (−1) = ⊤ + ⊥ = ⊥).  So it is stated for entries that are coercions of
  reals, and proved by pulling the coercion out of both sides and rearranging the double sum in ℝ.
-/
import Mathlib.Data.EReal.Basic
import Mathlib.Algebra.BigOperators.Ring.Finset
import Mathlib.Algebra.BigOperators.Group.Finset.Sigma

namespace Cert.GcnAlgebra

open Finset

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product, entries given as reals. -/
theorem assoc_coe {J K : Type*} [Fintype J] [Fintype K] (a : J → ℝ) (x : J → K → ℝ) (w : K → ℝ) :
    ∑ k, (∑ j, (a j : EReal) * (x j k : EReal)) * (w k : EReal)
      = ∑ j, (a j : EReal) * ∑ k, (x j k : EReal) * (w k : EReal) := by
  simp only [← EReal.coe_mul, ← coe_sum]
  refine congrArg _ ?_
  simp only [Finset.sum_mul, Finset.mul_sum]
  rw [Finset.sum_comm]
  exact Finset.sum_congr rfl fun j _ => Finset.sum_congr rfl fun k _ => mul_assoc _ _ _

/-- Associativity of the triple product for extended-real entries each of which is a real. -/
theorem assoc_of_real {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha' using ha
  choose x' hx' using hx
  choose w' hw' using hw
  obtain rfl : a = fun j => (a' j : EReal) := funext ha'
  obtain rfl : x = fun j k => (x' j k : EReal) := funext fun j => funext fun k => hx' j k
  obtain rfl : w = fun k => (w' k : EReal) := funext hw'
  exact assoc_coe a' x' w'

end Cert.GcnAlgebra
-- ==== Proof.GcnSpec.lean ====
/-
  The graph-convolution layer as ONE function of its four argument arrays, index by index, over the extended reals:

      out[r, q] = leaky( Σ … + b[q] ) + x[r, q],      leaky(y) = y if y ≥ 0, else s · y   (s the f32 word 0x3C23D70A),

  where the aggregation Σ … is the (r, q) entry of the triple product adj · x · W.  The two programs bracket that product
  differently: `aggLeft` is ((adj · x) · W)[r, q] (aggregate the features first, then apply the weights) and `aggRight`
  is (adj · (x · W))[r, q] (apply the weights first, then aggregate).  For arrays whose entries are all real the two
  agree (Proof/MatAssoc.lean), hence so do the two layers.  The slope `s` and the zero of the comparison are kept as
  the f32 words both programs print: they are never evaluated.
-/
import Idealize.ShloMosaic.PureOps.Ideal
import Idealize.ShloMosaic.Lib.ValueIdx
import proofs.«146201_g48773648614066_cont_8to1_c_1084_15_alg».proof.Proof.MatAssoc

noncomputable section

namespace Cert.Gcn

open Idealize.ShloMosaic Idealize.ShloMosaic.ValueIdx

/-- An r × c matrix of extended reals, indexed as a rank-2 array. -/
abbrev Mat (r c : Nat) : Type := (⟨2, ![r, c]⟩ : Shape).Idx → EReal
/-- A length-n vector of extended reals, indexed as a rank-1 array. -/
abbrev Row (n : Nat) : Type := (⟨1, ![n]⟩ : Shape).Idx → EReal

/-- Every entry is a real number (neither infinity). -/
def AllReal {s : Shape} (v : s.Idx → EReal) : Prop := ∀ i, ∃ r : ℝ, v i = r

/-- The leaky rectifier with the printed slope word, followed by the residual addition of `r`. -/
def act (y r : EReal) : EReal :=
  Scalar.select (Ideal.cmp .oge y (Ideal.ofBits .f32 0x00000000#32)) y (Ideal.ofBits .f32 0x3C23D70A#32 * y) + r

/-- ((adj · x) · W)[r, q]: features aggregated over the neighbours first, then multiplied by the weights. -/
def aggLeft (x : Mat 10000 128) (adj : Mat 10000 10000) (W : Mat 128 128) (r : Fin 10000) (q : Fin 128) : EReal :=
  ∑ k : Fin 128, (∑ j : Fin 10000, adj (ix2 r j) * x (ix2 j k)) * W (ix2 k q)

/-- (adj · (x · W))[r, q]: features multiplied by the weights first, then aggregated over the neighbours. -/
def aggRight (x : Mat 10000 128) (adj : Mat 10000 10000) (W : Mat 128 128) (r : Fin 10000) (q : Fin 128) : EReal :=
  ∑ j : Fin 10000, adj (ix2 r j) * ∑ k : Fin 128, x (ix2 j k) * W (ix2 k q)

/-- For real entries the two bracketings of adj · x · W agree entry by entry. -/
theorem aggLeft_eq_aggRight (x : Mat 10000 128) (adj : Mat 10000 10000) (W : Mat 128 128)
    (hx : AllReal x) (hadj : AllReal adj) (hW : AllReal W) (r : Fin 10000) (q : Fin 128) :
    aggLeft x adj W r q = aggRight x adj W r q :=
  Cert.GcnAlgebra.assoc_of_real (fun j => adj (ix2 r j)) (fun j k => x (ix2 j k)) (fun k => W (ix2 k q))
    (fun j => hadj _) (fun j k => hx _) (fun k => hW _)

/-- The layer's (r, q) entry with the product bracketed to the left. -/
def layerLeftAt (x : Mat 10000 128) (adj : Mat 10000 10000) (W : Mat 128 128) (b : Row 128) (r : Fin 10000) (q : Fin 128) : EReal :=
  act (aggLeft x adj W r q + b (ix1 q)) (x (ix2 r q))

/-- The layer's (r, q) entry with the product bracketed to the right. -/
def layerRightAt (x : Mat 10000 128) (adj : Mat 10000 10000) (W : Mat 128 128) (b : Row 128) (r : Fin 10000) (q : Fin 128) : EReal :=
  act (aggRight x adj W r q + b (ix1 q)) (x (ix2 r q))

/-- For real features, adjacency and weights the two entries agree (the bias may be any extended real: it is only
    added, never distributed over). -/
theorem layerRightAt_eq_layerLeftAt (x : Mat 10000 128) (adj : Mat 10000 10000) (W : Mat 128 128) (b : Row 128)
    (hx : AllReal x) (hadj : AllReal adj) (hW : AllReal W) (r : Fin 10000) (q : Fin 128) :
    layerRightAt x adj W b r q = layerLeftAt x adj W b r q := by
  unfold layerRightAt layerLeftAt
  rw [aggLeft_eq_aggRight x adj W hx hadj hW]

/-- The layer as an array, product bracketed to the left: entry `i` is the entry at `i`'s two coordinates. -/
def layerLeft (x : Mat 10000 128) (adj : Mat 10000 10000) (W : Mat 128 128) (b : Row 128) : Mat 10000 128 :=
  fun i => layerLeftAt x adj W b ⟨(i 0).val, idx2_lt0 i⟩ ⟨(i 1).val, idx2_lt1 i⟩

/-- The layer as an array, product bracketed to the right. -/
def layerRight (x : Mat 10000 128) (adj : Mat 10000 10000) (W : Mat 128 128) (b : Row 128) : Mat 10000 128 :=
  fun i => layerRightAt x adj W b ⟨(i 0).val, idx2_lt0 i⟩ ⟨(i 1).val, idx2_lt1 i⟩

theorem layerLeft_ix2 (x : Mat 10000 128) (adj : Mat 10000 10000) (W : Mat 128 128) (b : Row 128) (r : Fin 10000) (q : Fin 128) :
    layerLeft x adj W b (ix2 r q) = layerLeftAt x adj W b r q := rfl

theorem layerRight_ix2 (x : Mat 10000 128) (adj : Mat 10000 10000) (W : Mat 128 128) (b : Row 128) (r : Fin 10000) (q : Fin 128) :
    layerRight x adj W b (ix2 r q) = layerRightAt x adj W b r q := rfl

/-- For real features, adjacency and weights the two layers are one array. -/
theorem layerRight_eq_layerLeft (x : Mat 10000 128) (adj : Mat 10000 10000) (W : Mat 128 128) (b : Row 128)
    (hx : AllReal x) (hadj : AllReal adj) (hW : AllReal W) :
    layerRight x adj W b = layerLeft x adj W b :=
  funext fun _ => layerRightAt_eq_layerLeftAt x adj W b hx hadj hW _ _

end Cert.Gcn

end
-- ==== Proof.KernelEntry.lean ====
/-
  What one grid step of the kernel leaves in its output block, entry by entry.

  The body makes one store that covers the whole 400 × 128 output block.  Its value is computed from five loads: the
  400 × 10000 row block A of the adjacency, the whole feature matrix X, the weights Wt, the bias as a 1 × 128 row, and
  a second load of X — the 400 rows that the step's own output rows correspond to (the residual).  At entry (p, q):

      leaky( Σ_k ( Σ_j A[p, j] · X[j, k] ) · Wt[k, q] + bias[0, q] ) + residual[p, q].

  The two matrix products accumulate into a zero block, so each is its plain sum of products; the roundings to bf16 in
  front of them are the identity on extended reals; the bias row is broadcast down the 400 rows.
-/
import proofs.«146201_g48773648614066_cont_8to1_c_1084_15_alg».proof.Proof.Gen.KernelIdeal.Frame
import proofs.«146201_g48773648614066_cont_8to1_c_1084_15_alg».proof.Proof.GcnSpec
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Layer

open Cert.KernelIdeal Cert.KernelIdeal.Gen
open Idealize.ShloMosaic Idealize.ShloMosaic.TcCoe Idealize.ShloMosaic.ValueIdx Idealize.SL.Sem Cert.Gcn

theorem hz : (![0, 0] : Fin 2 → Nat) = fun _ => 0 := funext fun a => by fin_cases a <;> rfl

/-! ## The one covering store -/

section AnyInstance
variable {F : FTy → Type} [FloatOps F]

/-- The rows of the feature matrix the step adds back at the end: 400 rows starting at the row offset the body computes
    from the grid coordinate. -/
abbrev residual (i : grid0.Coords) (x1 : Vec F S10000x128 .f32) : Vec F S400x128 .f32 :=
  View.ld x1 (Rect.unit (s := S10000x128) (k0_off1 i) S400x128.size (k0_off1_inb i))

/-- What the body leaves in the output's staging buffer is its one store's value, a function of the four input blocks
    (the feature matrix being read twice: whole, and at the step's own rows). -/
theorem stored_eq (c : Dev nD) (i : grid0.Coords) (a1 : Memref sig .tc .vmem S400x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S1x128 .f32) (h4 : a4.IsWhole) (a5 : Memref sig .tc .vmem S400x128 .f32) (h5 : a5.IsWhole)
    (x0 : Vec F S400x10000 .f32) (x1 : Vec F S10000x128 .f32) (x2 : Vec F S128x128 .f32) (x3 : Vec F S1x128 .f32) :
    out0_A_4 c i a1 h1 a2 h2 a3 h3 a4 h4 a5 h5 x0 x1 x2 x3 = k0_pay1 x0 x1 x2 x3 (residual i x1) := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S400x10000) hz, View.ld_unit_zero (S := S10000x128) hz,
    View.ld_unit_zero (S := S128x128) hz, View.ld_unit_zero (S := S1x128) hz]
  rfl

end AnyInstance

/-! ## The store's value at an entry, over the extended reals -/

theorem lhs1_row (i : S400x128.Idx) (s : dot_S400x10000_S10000x128_S400x128_1_0_0_1_n_n.contr.Idx) : (dot_S400x10000_S10000x128_S400x128_1_0_0_1_n_n.lhsIdx i s 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl

theorem rhs1_col (i : S400x128.Idx) (s : dot_S400x10000_S10000x128_S400x128_1_0_0_1_n_n.contr.Idx) : (dot_S400x10000_S10000x128_S400x128_1_0_0_1_n_n.rhsIdx i s 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The first product, into a zero block: entry (p, k) is Σ_j A[p, j] · X[j, k]. -/
theorem aggregate_apply {φ₁ φ₂ : FTy} (l : FVec Ideal S400x10000 φ₁) (r : FVec Ideal S10000x128 φ₂) (p : Fin 400) (k : Fin 128) :
    matmul dot_S400x10000_S10000x128_S400x128_1_0_0_1_n_n none l r (constant (F := Ideal) S400x128 .f32 0x00000000#32) (ix2 p k)
      = ∑ j : Fin 10000, l (ix2 p j) * r (ix2 j k) := by
  simp only [matmul]
  rw [Ideal.matmul_constant_zero_apply, ← Equiv.sum_comp (contrEquiv1 dot_S400x10000_S10000x128_S400x128_1_0_0_1_n_n 10000 rfl rfl).symm]
  refine Finset.sum_congr rfl fun j _ => ?_
  have hj := contrEquiv1_symm_val dot_S400x10000_S10000x128_S400x128_1_0_0_1_n_n 10000 rfl rfl j
  have el : dot_S400x10000_S10000x128_S400x128_1_0_0_1_n_n.lhsIdx (ix2 p k) ((contrEquiv1 dot_S400x10000_S10000x128_S400x128_1_0_0_1_n_n 10000 rfl rfl).symm j) = ix2 p j := funext fun a => Fin.ext (by
    match a with
    | ⟨0, _⟩ => exact lhs1_row _ _
    | ⟨1, _⟩ => exact (dot_S400x10000_S10000x128_S400x128_1_0_0_1_n_n.lhsIdx_val_of_single rfl _ _).trans hj)
  have er : dot_S400x10000_S10000x128_S400x128_1_0_0_1_n_n.rhsIdx (ix2 p k) ((contrEquiv1 dot_S400x10000_S10000x128_S400x128_1_0_0_1_n_n 10000 rfl rfl).symm j) = ix2 j k := funext fun a => Fin.ext (by
    match a with
    | ⟨0, _⟩ => exact (dot_S400x10000_S10000x128_S400x128_1_0_0_1_n_n.rhsIdx_val_of_single rfl _ _).trans hj
    | ⟨1, _⟩ => exact rhs1_col _ _)
  rw [el, er]

theorem lhs2_row (i : S400x128.Idx) (s : dot_S400x128_S128x128_S400x128_1_0_0_1_n_n.contr.Idx) : (dot_S400x128_S128x128_S400x128_1_0_0_1_n_n.lhsIdx i s 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl

theorem rhs2_col (i : S400x128.Idx) (s : dot_S400x128_S128x128_S400x128_1_0_0_1_n_n.contr.Idx) : (dot_S400x128_S128x128_S400x128_1_0_0_1_n_n.rhsIdx i s 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- The second product, into a zero block: entry (p, q) is Σ_k T[p, k] · Wt[k, q]. -/
theorem weights_apply {φ₁ φ₂ : FTy} (l : FVec Ideal S400x128 φ₁) (r : FVec Ideal S128x128 φ₂) (p : Fin 400) (q : Fin 128) :
    matmul dot_S400x128_S128x128_S400x128_1_0_0_1_n_n none l r (constant (F := Ideal) S400x128 .f32 0x00000000#32) (ix2 p q)
      = ∑ k : Fin 128, l (ix2 p k) * r (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs2_row _ _
    | ⟨1, _⟩ => exact (dot_S400x128_S128x128_S400x128_1_0_0_1_n_n.lhsIdx_val_of_single rfl _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (dot_S400x128_S128x128_S400x128_1_0_0_1_n_n.rhsIdx_val_of_single rfl _ _).trans hk
    | ⟨1, _⟩ => exact rhs2_col _ _)
  rw [el, er]

/-- The bias row broadcast down the 400 rows: entry (p, q) is bias[0, q]. -/
theorem bias_rows_apply {α : Type} (v : S1x128.Idx → α) (h : S1x128.Broadcasts S400x128) (p : Fin 400) (q : Fin 128) :
    broadcastTo S400x128 v h (ix2 p q) = v (ix2 0 q) :=
  broadcastTo_apply v h (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- The stored value at entry (p, q). -/
theorem stored_apply (x0 : Vec Ideal S400x10000 .f32) (x1 : Vec Ideal S10000x128 .f32) (x2 : Vec Ideal S128x128 .f32)
    (x3 : Vec Ideal S1x128 .f32) (x20 : Vec Ideal S400x128 .f32) (p : Fin 400) (q : Fin 128) :
    k0_pay1 (F := Ideal) x0 x1 x2 x3 x20 (ix2 p q)
      = act ((∑ k : Fin 128, (∑ j : Fin 10000, x0 (ix2 p j) * x1 (ix2 j k)) * x2 (ix2 k q)) + x3 (ix2 0 q)) (x20 (ix2 p q)) := by
  unfold k0_pay1
  simp only [addf_apply, select_apply, cmpf_apply, mulf_apply, broadcast_apply, weights_apply, truncf_apply,
    aggregate_apply, shapeCast_self, bias_rows_apply]
  rfl

end Cert.KernelIdeal.Layer

end
-- ==== Proof.KernelArray.lean ====
/-
  The kernel's result array after the run is the left-bracketed layer of the four arguments.

  The grid has 25 steps; step t reads rows 400·t … 400·t + 399 of the adjacency (all 10000 columns), the whole feature
  matrix, the whole weight matrix and the bias as a 1 × 128 row (a reshape of the bias vector made before the launch),
  and writes rows 400·t … 400·t + 399 of the result.  The residual rows it adds are rows 400·t + p of the feature
  matrix — the same rows as the output's.  So what step t writes back is exactly rows 400·t … of ONE array, the layer
  `Cert.Gcn.layerLeft` of the arguments; the 25 row blocks tile the 10000 rows, so the array ends holding it.
-/
import proofs.«146201_g48773648614066_cont_8to1_c_1084_15_alg».proof.Proof.Gen.KernelIdeal.Value
import proofs.«146201_g48773648614066_cont_8to1_c_1084_15_alg».proof.Proof.KernelEntry
import Idealize.ShloMosaic.Lib.StableHlo.Run

noncomputable section

namespace Cert.KernelIdeal.Layer

open Cert.KernelIdeal Cert.KernelIdeal.Gen
open Idealize.ShloMosaic Idealize.ShloMosaic.TcCoe Idealize.ShloMosaic.ValueIdx Idealize.SL.Sem Cert.Gcn
open Idealize.ShloMosaic.Pipeline (Dat)

variable (m : (ℓ : Loc nD τ sig) → Buf (Elt Idealize.ShloMosaic.Ideal) ℓ) (ρ : Dev nD → PrngReg)

/-! ## The bias row as the launch finds it -/

/-- Before the launch the bias vector is reshaped to a 1 × 128 row. -/
theorem bias_found (c : Dev nD) :
    (V m c main_v0 : S1x128.Idx → EReal) = shapeCast S1x128 (m ((c : Thread nD τ).loc main_arg3)) shapeCasts_S128_S1x128 := by
  dsimp only [V, hostOps0]; after_results; rfl

/-- Entry (0, q) of a length-128 vector reshaped to 1 × 128 is its entry q (both sit at row-major position q). -/
theorem bias_cast_apply {α : Type} (b : S128.Idx → α) (h : S128.ShapeCasts S1x128) (q : Fin 128) :
    shapeCast S1x128 b h (ix2 0 q) = b (ix1 q) :=
  shapeCast_apply b h (ix2 0 q) (ix1 q) (by
    rw [Shape.rowMajor_val_one, Shape.rowMajor_val_two]
    show q.val = 0 * 128 + q.val
    omega)

/-! ## Where each block sits -/

/-- The printed index maps and the body's row offset, decided over the 25 steps: the adjacency and the result move one
    block down per step; the features, weights and bias stay; the residual rows start at 400·t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0 :=
  (by decide +kernel : ∀ t : Fin grid0.N, _)

theorem step_lt (t : Fin cfg0.N) : t.val < 25 := lt_of_lt_of_eq t.isLt N_0

/-! ## What a step writes back -/

/-- WHAT STEP `t` WRITES BACK is block `t` of the left-bracketed layer of the arrays as the launch finds them. -/
theorem flushed_eq (c : Dev nD) (t : Fin cfg0.N) :
    (dats m 0 c).flushed 4 t = ((cfg0.win 4).blk t).view.read (Elt Idealize.ShloMosaic.Ideal)
      (layerLeft (V m c main_arg0) (V m c main_arg1) (V m c main_arg2) (m ((c : Thread nD τ).loc main_arg3))) := by
  rw [Value.flushed4_A]
  refine funext fun (y : S400x128.Idx) => ?_
  obtain ⟨p, q, rfl⟩ : ∃ (p : Fin 400) (q : Fin 128), y = ix2 p q := ⟨y 0, y 1, eq_ix2 y⟩
  obtain ⟨i00, i01, i10, i11, i20, i21, i30, i31, i40, i41, o0, o1⟩ := idx_facts t
  have ht := step_lt t
  have hp := p.isLt
  obtain ⟨r, hr⟩ : ∃ r : Fin 10000, r.val = 400 * t.val + p.val := ⟨⟨400 * t.val + p.val, by omega⟩, rfl⟩
  -- the adjacency block's row p is row r of the adjacency
  have e0 : ∀ j : Fin 10000, iblk m c 0 t (ix2 p j) = V m c main_arg1 (ix2 r j) := fun j => by
    show V m c main_arg1 (((cfg0.win 0).blk t).view.emb (ix2 p j)) = V m c main_arg1 (ix2 r j)
    refine congrArg _ (funext fun a => Fin.ext ?_)
    match a with
    | ⟨0, _⟩ => show win0_0.index t (0 : Fin 2) * 400 + 1 * p.val = r.val; omega
    | ⟨1, _⟩ => show win0_0.index t (1 : Fin 2) * 10000 + 1 * j.val = j.val; omega
  -- the feature, weight and bias blocks are the whole arrays
  have e1 : ∀ (j : Fin 10000) (k : Fin 128), iblk m c 1 t (ix2 j k) = V m c main_arg0 (ix2 j k) := fun j k => by
    show V m c main_arg0 (((cfg0.win 1).blk t).view.emb (ix2 j k)) = V m c main_arg0 (ix2 j k)
    refine congrArg _ (funext fun a => Fin.ext ?_)
    match a with
    | ⟨0, _⟩ => show win0_1.index t (0 : Fin 2) * 10000 + 1 * j.val = j.val; omega
    | ⟨1, _⟩ => show win0_1.index t (1 : Fin 2) * 128 + 1 * k.val = k.val; omega
  have e2 : ∀ (k : Fin 128) (q' : Fin 128), iblk m c 2 t (ix2 k q') = V m c main_arg2 (ix2 k q') := fun k q' => by
    show V m c main_arg2 (((cfg0.win 2).blk t).view.emb (ix2 k q')) = V m c main_arg2 (ix2 k q')
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q'.val = q'.val; omega
  have e3 : iblk m c 3 t (ix2 0 q) = m ((c : Thread nD τ).loc main_arg3) (ix1 q) := by
    show V m c main_v0 (((cfg0.win 3).blk t).view.emb (ix2 0 q)) = _
    have hemb : ((cfg0.win 3).blk t).view.emb (ix2 0 q) = ix2 0 q := funext fun a => Fin.ext (by
      match a with
      | ⟨0, _⟩ => show win0_3.index t (0 : Fin 2) * 1 + 1 * 0 = 0; omega
      | ⟨1, _⟩ => show win0_3.index t (1 : Fin 2) * 128 + 1 * q.val = q.val; omega)
    rw [hemb]
    exact (congrFun (bias_found m c) (ix2 0 q)).trans (bias_cast_apply _ _ q)
  -- the residual rows are the output's own rows of the feature matrix
  have e5 : residual (grid0.coords t) (iblk m c 1 t) (ix2 p q) = V m c main_arg0 (ix2 r q) := by
    show V m c main_arg0 (((cfg0.win 1).blk t).view.emb
      ((Rect.unit (s := S10000x128) (k0_off1 (grid0.coords t)) S400x128.size (k0_off1_inb (grid0.coords t))).idx (ix2 p q))) = _
    refine congrArg _ (funext fun a => Fin.ext ?_)
    match a with
    | ⟨0, _⟩ => show win0_1.index t (0 : Fin 2) * 10000 + 1 * (k0_off1 (grid0.coords t) (0 : Fin 2) + 1 * p.val) = r.val; omega
    | ⟨1, _⟩ => show win0_1.index t (1 : Fin 2) * 128 + 1 * (k0_off1 (grid0.coords t) (1 : Fin 2) + 1 * q.val) = q.val; omega
  -- the output block's entry (p, q) is entry (r, q) of the result
  have e4 : ((cfg0.win 4).blk t).view.emb (ix2 p q) = ix2 r q := funext fun a => Fin.ext (by
    match a with
    | ⟨0, _⟩ => show win0_4.index t (0 : Fin 2) * 400 + 1 * p.val = r.val; omega
    | ⟨1, _⟩ => show win0_4.index t (1 : Fin 2) * 128 + 1 * q.val = q.val; omega)
  refine (congrFun (stored_eq (F := Idealize.ShloMosaic.Ideal) c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t)) (ix2 p q)).trans ?_
  refine (stored_apply (iblk m c 0 t) (iblk m c 1 t) (iblk m c 2 t) (iblk m c 3 t)
    (residual (grid0.coords t) (iblk m c 1 t)) p q).trans ?_
  show _ = layerLeft (V m c main_arg0) (V m c main_arg1) (V m c main_arg2) (m ((c : Thread nD τ).loc main_arg3))
    (((cfg0.win 4).blk t).view.emb (ix2 p q))
  rw [e4, layerLeft_ix2, e3, e5]
  unfold layerLeftAt aggLeft
  simp only [e0, e1, e2]

/-! ## The array after the run -/

/-- An index of the result array is in step `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Every block row 0 … 24 is some step's. -/
theorem idx_onto : ∀ b : Fin 25, ∃ t : Fin cfg0.N, win0_4.index t = ![b.val, 0] :=
  (by decide +kernel : ∀ b : Fin 25, ∃ t : Fin grid0.N, win0_4.index t = ![b.val, 0])

/-- The 25 row blocks tile the 10000 rows: row r lies in the block of the step whose block row is r / 400. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE RESULT ARRAY after the run: the left-bracketed layer of the four argument arrays. -/
theorem final (c : Dev nD) : (dats m 0 c).arrAt 4 cfg0.N
    = layerLeft (m ((c : Thread nD τ).loc main_arg0)) (m ((c : Thread nD τ).loc main_arg1)) (m ((c : Thread nD τ).loc main_arg2))
        (m ((c : Thread nD τ).loc main_arg3)) := by
  rw [← V_main_arg0 m c, ← V_main_arg1 m c, ← V_main_arg2 m c]
  exact (dats m 0 c).arrAt_eq_of_cover 4 _ (fun t _ => flushed_eq m c t) cover

/-- The kernel's run, read: the result array at the layer of the arguments, the arguments unchanged. -/
theorem run : θ_run defs (onTc (τ := τ) (main (F := Idealize.ShloMosaic.Ideal))) ⟨m, fun _ => 0, ρ⟩ fun r => ∀ c : Dev nD,
      r.2.mem ((c : Thread nD τ).loc main_v1)
        = layerLeft (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.RefLayer.lean ====
/-
  The reference program's result is the layer with the product bracketed to the right.

  Its operations, read at an index (r, q) of the result: the first dot product gives (x · W)[j, q] = Σ_k x[j, k] · W[k, q],
  the second Σ_j adj[r, j] · (x · W)[j, q]; the bias is broadcast along the rows, so entry (r, q) receives b[q]; the
  comparison with zero, the product with the slope word, the selection and the final addition of x[r, q] are all
  elementwise.  That is `Cert.Gcn.layerRightAt` by definition, once the generated index maps of the two dot products and
  of the two broadcasts are written with coordinates.
-/
import proofs.«146201_g48773648614066_cont_8to1_c_1084_15_alg».proof.Proof.Gen.ReferenceIdeal.Read
import proofs.«146201_g48773648614066_cont_8to1_c_1084_15_alg».proof.Proof.GcnSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Gcn

/-- Left operand of adj · (x·W) at output (r, q), contraction coordinate j: adj[r, j]. -/
theorem lidx_v1 (r : Fin 10000) (q : Fin 128) (j : Fin 10000) : lidx_main_v1 (ix2 r q) j = ix2 r j :=
  funext fun a => Fin.ext (by match a with | ⟨0, _⟩ => rfl | ⟨1, _⟩ => rfl)

/-- Right operand of adj · (x·W) at output (r, q), contraction coordinate j: (x·W)[j, q]. -/
theorem ridx_v1 (r : Fin 10000) (q : Fin 128) (j : Fin 10000) : ridx_main_v1 (ix2 r q) j = ix2 j q :=
  funext fun a => Fin.ext (by match a with | ⟨0, _⟩ => rfl | ⟨1, _⟩ => rfl)

/-- Left operand of x · W at output (j, q), contraction coordinate k: x[j, k]. -/
theorem lidx_v0 (j : Fin 10000) (q : Fin 128) (k : Fin 128) : lidx_main_v0 (ix2 j q) k = ix2 j k :=
  funext fun a => Fin.ext (by match a with | ⟨0, _⟩ => rfl | ⟨1, _⟩ => rfl)

/-- Right operand of x · W at output (j, q), contraction coordinate k: W[k, q]. -/
theorem ridx_v0 (j : Fin 10000) (q : Fin 128) (k : Fin 128) : ridx_main_v0 (ix2 j q) k = ix2 k q :=
  funext fun a => Fin.ext (by match a with | ⟨0, _⟩ => rfl | ⟨1, _⟩ => rfl)

/-- The bias, broadcast to a row and then down the rows, read at (r, q), is b[q]. -/
theorem bias_idx (r : Fin 10000) (q : Fin 128) : idx_main_v2 (idx_main_v3 (ix2 r q)) = ix1 q :=
  funext fun a => Fin.ext (by match a with | ⟨0, _⟩ => rfl)

/-- The pre-activation of the reference at (r, q): the right-bracketed aggregation plus the bias. -/
theorem pre_apply (x0 : FVec Ideal S10000x128 .f32) (x1 : FVec Ideal S10000x10000 .f32) (x2 : FVec Ideal S128x128 .f32)
    (x3 : FVec Ideal S128 .f32) (r : Fin 10000) (q : Fin 128) :
    val_main_v4 (F := Ideal) x0 x1 x2 x3 (ix2 r q) = aggRight x0 x1 x2 r q + x3 (ix1 q) := by
  rw [val_main_v4_apply, val_main_v1_apply, val_main_v3_apply, val_main_v2_apply, bias_idx]
  simp only [val_main_v0_apply, lidx_v1, ridx_v1, lidx_v0, ridx_v0]
  rfl

/-- The reference's result array is the right-bracketed layer of its four arguments. -/
theorem result_eq (x0 : FVec Ideal S10000x128 .f32) (x1 : FVec Ideal S10000x10000 .f32) (x2 : FVec Ideal S128x128 .f32)
    (x3 : FVec Ideal S128 .f32) :
    val_main_v10 (F := Ideal) x0 x1 x2 x3 = layerRight x0 x1 x2 x3 := by
  funext i
  obtain ⟨r, q, rfl⟩ : ∃ (r : Fin 10000) (q : Fin 128), i = ix2 r q := ⟨i 0, i 1, eq_ix2 i⟩
  rw [layerRight_ix2, val_main_v10_apply, val_main_v9_apply, val_main_v6_apply, val_main_v8_apply, val_main_v5_apply,
    val_main_cst_apply, val_main_v7_apply, val_main_cst_0_apply, pre_apply]
  rfl

end Cert.ReferenceIdeal.RefValue

end
-- ==== Proof.FiniteInputs.lean ====
/-
  What the precondition gives: every entry of the features, the adjacency and the weights is a real number.

  The precondition is the conjunction, over the four arrays, of "every entry's absolute value is below +∞" (the f32
  word 0x7F800000 denotes +∞).  On the extended reals |x| = max x (−x), which is +∞ at both infinities and a real at a
  real; so |x| < +∞ holds exactly at the reals.  The associativity of the triple product (Proof/MatAssoc.lean) needs
  this of the three matrices; the bias is only ever added, and nothing is asked of it here.
-/
import proofs.«146201_g48773648614066_cont_8to1_c_1084_15_alg».proof.Defs
import proofs.«146201_g48773648614066_cont_8to1_c_1084_15_alg».proof.Proof.Gen.Pre_finite_inputs
import proofs.«146201_g48773648614066_cont_8to1_c_1084_15_alg».proof.Proof.GcnSpec
import Idealize.ShloMosaic.Lib.ReduceAll
import Idealize.ShloMosaic.Lib.Affine
import Idealize.ShloMosaic.PureOps.Ideal.Laws

noncomputable section

namespace Cert.FiniteInputs

open Idealize.ShloMosaic Idealize.ShloMosaic.ValueIdx Cert.Gcn

/-- The f32 word of the comparison denotes +∞. -/
theorem inf_word : Idealize.ShloMosaic.Ideal.ofBits .f32 0x7F800000#32 = ⊤ := by
  simp [Idealize.ShloMosaic.Ideal.ofBits, Idealize.ShloMosaic.Ideal.ieee]

/-- An extended real whose absolute value is below +∞ is a real. -/
theorem real_of_abs_lt_inf (x : EReal)
    (h : FloatOps.cmpf (F := Idealize.ShloMosaic.Ideal) (φ := .f32) .olt (FloatOps.hostAbsf x) (FloatOps.ofBits .f32 0x7F800000#32) = 1#1) :
    ∃ r : ℝ, x = r := by
  induction x using EReal.rec with
  | bot =>
    exfalso; revert h
    simp [Idealize.ShloMosaic.Ideal.cmpf_def, Idealize.ShloMosaic.Ideal.absf_def, Idealize.ShloMosaic.Ideal.cmp, inf_word]
  | top =>
    exfalso; revert h
    simp [Idealize.ShloMosaic.Ideal.cmpf_def, Idealize.ShloMosaic.Ideal.absf_def, Idealize.ShloMosaic.Ideal.cmp, inf_word]
  | coe r => exact ⟨r, rfl⟩

section
variable [Cert.Pre_finite_inputs.Facts]
open Cert.Pre_finite_inputs Cert.Pre_finite_inputs.Facts

instance : Subsingleton S_.Idx := ⟨fun a b => funext fun d => d.elim0⟩

/-- Under the precondition the features, the adjacency and the weights have real entries. -/
theorem allReal_of_pre (a0 : FVec Idealize.ShloMosaic.Ideal S10000x128 .f32) (a1 : FVec Idealize.ShloMosaic.Ideal S10000x10000 .f32)
    (a2 : FVec Idealize.ShloMosaic.Ideal S128x128 .f32) (a3 : FVec Idealize.ShloMosaic.Ideal S128 .f32)
    (h : Cert.Pre_finite_inputs.fn (F := Idealize.ShloMosaic.Ideal) a0 a1 a2 a3 = fun _ => 1#1) :
    AllReal a0 ∧ AllReal a1 ∧ AllReal a2 := by
  have h0 := congrFun h ix0
  dsimp only [fn, fn_part1] at h0
  obtain ⟨h012, -⟩ := IntOp.andi_eq_one.1 h0
  obtain ⟨h01, hW⟩ := IntOp.andi_eq_one.1 h012
  obtain ⟨hx, hadj⟩ := IntOp.andi_eq_one.1 h01
  exact ⟨fun i => real_of_abs_lt_inf (a0 i) (Host.reduce_andi_all _ _ _ _ ix0 hx i),
    fun i => real_of_abs_lt_inf (a1 i) (Host.reduce_andi_all _ _ _ _ ix0 hadj i),
    fun i => real_of_abs_lt_inf (a2 i) (Host.reduce_andi_all _ _ _ _ ix0 hW i)⟩

end

end Cert.FiniteInputs

end
-- ==== Proof.lean ====
/-
  A graph-convolution layer: out = leaky(adj · x · W + b) + x, with x : 10000 × 128 features, adj : 10000 × 10000,
  W : 128 × 128, b : 128, leaky(y) = y for y ≥ 0 and s · y otherwise (s one f32 word, the same in both programs).

  The kernel computes the triple product bracketed to the LEFT, (adj · x) · W: in 25 grid steps of 400 rows each it
  multiplies a row block of adj by the whole of x, then by W, adds the bias row, applies the rectifier and adds back its
  own 400 rows of x.  The reference brackets to the RIGHT, adj · (x · W), over the whole arrays.  Over the extended
  reals every operation is exact and a change of float format is the identity, so the two results differ only in that
  bracketing; and for REAL entries of adj, x and W — which is what the precondition says — the triple product is
  associative (Proof/MatAssoc.lean; it is not on all extended reals, where distributivity fails at the infinities).

    Proof/MatAssoc.lean       the associativity law, in ℝ inside the extended reals
    Proof/GcnSpec.lean        the layer as one function of the four arrays, in both bracketings; they agree on reals
    Proof/RefLayer.lean       the reference's result is the right-bracketed layer
    Proof/KernelEntry.lean    what one grid step stores, entry by entry
    Proof/KernelArray.lean    the 25 stored row blocks are the left-bracketed layer; the kernel's run
    Proof/FiniteInputs.lean   the precondition makes adj, x and W real

  The three frame claims are the generated frame runs (the reference's: its generated run with the result dropped); the
  idealization rewrote nothing, so `preserves` is `True`.
-/
import proofs.«146201_g48773648614066_cont_8to1_c_1084_15_alg».proof.Defs
import proofs.«146201_g48773648614066_cont_8to1_c_1084_15_alg».proof.Proof.Gen.Kernel
import proofs.«146201_g48773648614066_cont_8to1_c_1084_15_alg».proof.Proof.Gen.Kernel.Skeleton
import proofs.«146201_g48773648614066_cont_8to1_c_1084_15_alg».proof.Proof.Gen.Kernel.Launch
import proofs.«146201_g48773648614066_cont_8to1_c_1084_15_alg».proof.Proof.Gen.Kernel.Points
import proofs.«146201_g48773648614066_cont_8to1_c_1084_15_alg».proof.Proof.Gen.Kernel.Frame
import proofs.«146201_g48773648614066_cont_8to1_c_1084_15_alg».proof.Proof.Gen.KernelIdeal
import proofs.«146201_g48773648614066_cont_8to1_c_1084_15_alg».proof.Proof.Gen.KernelIdeal.Skeleton
import proofs.«146201_g48773648614066_cont_8to1_c_1084_15_alg».proof.Proof.Gen.KernelIdeal.Launch
import proofs.«146201_g48773648614066_cont_8to1_c_1084_15_alg».proof.Proof.Gen.KernelIdeal.Points
import proofs.«146201_g48773648614066_cont_8to1_c_1084_15_alg».proof.Proof.Gen.KernelIdeal.Frame
import proofs.«146201_g48773648614066_cont_8to1_c_1084_15_alg».proof.Proof.Gen.ReferenceIdeal
import proofs.«146201_g48773648614066_cont_8to1_c_1084_15_alg».proof.Proof.Gen.KernelIdeal.Value
import proofs.«146201_g48773648614066_cont_8to1_c_1084_15_alg».proof.Proof.Gen.ReferenceIdeal.Run
import proofs.«146201_g48773648614066_cont_8to1_c_1084_15_alg».proof.Proof.Gen.ReferenceIdeal.Read
import proofs.«146201_g48773648614066_cont_8to1_c_1084_15_alg».proof.Proof.Gen.Pre_finite_inputs
import proofs.«146201_g48773648614066_cont_8to1_c_1084_15_alg».proof.Proof.KernelArray
import proofs.«146201_g48773648614066_cont_8to1_c_1084_15_alg».proof.Proof.RefLayer
import proofs.«146201_g48773648614066_cont_8to1_c_1084_15_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2)
    (Cert.ReferenceIdeal.Value.run (F := Idealize.ShloMosaic.Ideal) m ρ)

theorem preserves : Cert.preserves_Kernel_KernelIdeal := trivial

/-- Both idealized programs end with the layer of the (agreeing) arguments: the kernel with the left bracketing, the
    reference with the right one, equal because the precondition makes the three matrices real. -/
theorem algebraic : Cert.algebraic_KernelIdeal_ReferenceIdeal := by
  intro m ρ m' ρ' hpre hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Idealize.ShloMosaic.Ideal) m' ρ')
  refine (Cert.ReferenceIdeal.Read.val_main_v10_eq _ _ _ _).trans ?_
  rw [Cert.ReferenceIdeal.RefValue.result_eq, (hagree c).1, (hagree c).2.1, (hagree c).2.2.1, (hagree c).2.2.2]
  obtain ⟨hx, hadj, hW⟩ := Cert.FiniteInputs.allReal_of_pre _ _ _ _ (hpre c)
  exact Cert.Gcn.layerRight_eq_layerLeft _ _ _ _ hx hadj hW

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
